-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x512 : Shape := ⟨2, ![512, 512]⟩
abbrev S512 : Shape := ⟨1, ![512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S1024x512 .f32) (main_arg1 : FVec F S512x512 .f32) (main_arg2 : FVec F S512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S1024x512 : Shape := ⟨2, ![1024, 512]⟩
abbrev S512x512 : Shape := ⟨2, ![512, 512]⟩
abbrev S512 : Shape := ⟨1, ![512]⟩
abbrev S64x128 : Shape := ⟨2, ![64, 128]⟩
abbrev S128x128 : Shape := ⟨2, ![128, 128]⟩
abbrev S128 : Shape := ⟨1, ![128]⟩
abbrev S1x1x128 : Shape := ⟨3, ![1, 1, 128]⟩
abbrev S64x128x1 : Shape := ⟨3, ![64, 128, 1]⟩
abbrev S64x128x128 : Shape := ⟨3, ![64, 128, 128]⟩
abbrev S1x128x128 : Shape := ⟨3, ![1, 128, 128]⟩

abbrev nBuf : Space → Nat
  | .hbm => 4
  | .vmem => 10
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S1024x512, .f32⟩
  | .local _ .vmem, ⟨0, _⟩ => ⟨S64x128, .f32⟩
  | .local _ .vmem, ⟨1, _⟩ => ⟨S64x128, .f32⟩
  | .local _ .vmem, ⟨2, _⟩ => ⟨S128x128, .f32⟩
  | .local _ .vmem, ⟨3, _⟩ => ⟨S128x128, .f32⟩
  | .local _ .vmem, ⟨4, _⟩ => ⟨S128, .f32⟩
  | .local _ .vmem, ⟨5, _⟩ => ⟨S128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v52 : BitVec 1 := Scalar.cmpi .eq arg2 c3_i32
  let v53 : BitVec 32 := Scalar.extui v52
  let c0_i32_20 : BitVec 32 := 0#32
  let v54 : BitVec 1 := Scalar.cmpi .ne v53 c0_i32_20
  v54

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x1x128 : S128.ShapeCasts S1x1x128
  shapeCasts_S64x128_S64x128x1 : S64x128.ShapeCasts S64x128x1
  broadcasts_S1x1x128_S64x128x128 : S1x1x128.Broadcasts S64x128x128
  broadcasts_S64x128x1_S64x128x128 : S64x128x1.Broadcasts S64x128x128
  shapeCasts_S128x128_S1x128x128 : S128x128.ShapeCasts S1x128x128
  broadcasts_S1x128x128_S64x128x128 : S1x128x128.Broadcasts S64x128x128
  reduces_S64x128x128_S64x128 : S64x128x128.Reduces [1] S64x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S1024x512.size a
  hwx0_0 : ∀ i : grid0.Coords, EltTy.bits .f32 = 32 ∨ (Rect.block (s := S1024x512) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S512x512.size a
  hwx0_1 : ∀ i : grid0.Coords, EltTy.bits .f32 = 32 ∨ (Rect.block (s := S512x512) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S512.size a
  hwx0_2 : ∀ i : grid0.Coords, EltTy.bits .f32 = 32 ∨ (Rect.block (s := S512) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S1024x512.size a
  hwx0_3 : ∀ i : grid0.Coords, EltTy.bits .f32 = 32 ∨ (Rect.block (s := S1024x512) S64x128.size (cc0_transform_3 i) (hinb0_3 i)).WholeWords (EltTy.packing .f32)

variable [Facts₀]

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x512 : Shape := ⟨2, ![1024, 512]⟩
abbrev S512x512 : Shape := ⟨2, ![512, 512]⟩
abbrev S512 : Shape := ⟨1, ![512]⟩
abbrev S_ : Shape := ⟨0, ![]⟩
abbrev S1x1x512 : Shape := ⟨3, ![1, 1, 512]⟩
abbrev S1024x512x1 : Shape := ⟨3, ![1024, 512, 1]⟩
abbrev S1024x512x512 : Shape := ⟨3, ![1024, 512, 512]⟩
abbrev S1x512x512 : Shape := ⟨3, ![1, 512, 512]⟩

abbrev nBuf : Space → Nat
  | .hbm => 51
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S_, .f32⟩
  | .hbm, ⟨4, _⟩ => ⟨S512x512, .f32⟩
  | .hbm, ⟨5, _⟩ => ⟨S512x512, .f32⟩
  | .hbm, ⟨6, _⟩ => ⟨S_, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .i1⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S_, .f32⟩
  | .hbm, ⟨21, _⟩ => ⟨S512x512, .f32⟩
  | .hbm, ⟨22, _⟩ => ⟨S512x512, .f32⟩
  | .hbm, ⟨23, _⟩ => ⟨S1x1x512, .f32⟩
  | .hbm, ⟨24, _⟩ => ⟨S1024x512x1, .f32⟩
  | .hbm, ⟨25, _⟩ => ⟨S1024x512x512, .f32⟩
  | .hbm, ⟨26, _⟩ => ⟨S1024x512x512, .f32⟩
  | .hbm, ⟨27, _⟩ => ⟨S1024x512x512, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1024x512x512, .f32⟩
  | .hbm, ⟨32, _⟩ => ⟨S1024x512x512, .f32⟩
  | .hbm, ⟨33, _⟩ => ⟨S_, .f32⟩
  | .hbm, ⟨34, _⟩ => ⟨S1024x512x512, .f32⟩
  | .hbm, ⟨35, _⟩ => ⟨S1024x512x512, .f32⟩
  | .hbm, ⟨36, _⟩ => ⟨S1x512x512, .f32⟩
  | .hbm, ⟨37, _⟩ => ⟨S1024x512x512, .f32⟩
  | .hbm, ⟨38, _⟩ => ⟨S1024x512x512, .f32⟩
  | .hbm, ⟨39, _⟩ => ⟨S1024x512x512, .f32⟩
  | .hbm, ⟨40, _⟩ => ⟨S1024x512x1, .f32⟩
  | .hbm, ⟨41, _⟩ => ⟨S1024x512x512, .f32⟩
  | .hbm, ⟨42, _⟩ => ⟨S1024x512x512, .f32⟩
  | .hbm, ⟨43, _⟩ => ⟨S_, .f32⟩
  | .hbm, ⟨44, _⟩ => ⟨S1024x512, .f32⟩
  | .hbm, ⟨45, _⟩ => ⟨S_, .f32⟩
  | .hbm, ⟨46, _⟩ => ⟨S1024x512, .f32⟩
  | .hbm, ⟨47, _⟩ => ⟨S_, .f32⟩
  | .hbm, ⟨48, _⟩ => ⟨S1024x512, .f32⟩
  | .hbm, ⟨49, _⟩ => ⟨S1024x512, .f32⟩
  | .hbm, ⟨50, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_3 : Ref sig .tc := ⟨.hbm, 43, rfl⟩
abbrev main_v18 : Ref sig .tc := ⟨.hbm, 44, rfl⟩
abbrev main_cst_4 : Ref sig .tc := ⟨.hbm, 45, rfl⟩
abbrev main_v19 : Ref sig .tc := ⟨.hbm, 46, rfl⟩
abbrev main_cst_5 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S512_S1x1x512_2 : S512.BroadcastsInDim S1x1x512 (![2] : Fin 1 → Fin S1x1x512.rank)
  bcast_S1024x512_S1024x512x1_0_1 : S1024x512.BroadcastsInDim S1024x512x1 (![0, 1] : Fin 2 → Fin S1024x512x1.rank)
  bcast_S1x1x512_S1024x512x512_0_1_2 : S1x1x512.BroadcastsInDim S1024x512x512 (![0, 1, 2] : Fin 3 → Fin S1024x512x512.rank)
  bcast_S1024x512x1_S1024x512x512_0_1_2 : S1024x512x1.BroadcastsInDim S1024x512x512 (![0, 1, 2] : Fin 3 → Fin S1024x512x512.rank)
  bcast_S_S1024x512x512 : S_.BroadcastsInDim S1024x512x512 (![] : Fin 0 → Fin S1024x512x512.rank)
  bcast_S512x512_S1x512x512_1_2 : S512x512.BroadcastsInDim S1x512x512 (![1, 2] : Fin 2 → Fin S1x512x512.rank)
  bcast_S1x512x512_S1024x512x512_0_1_2 : S1x512x512.BroadcastsInDim S1024x512x512 (![0, 1, 2] : Fin 3 → Fin S1024x512x512.rank)
  reducesTo_S1024x512x512_S1024x512_d1 : S1024x512x512.ReducesTo [1] S1024x512
  h_S_ : 0 < S_.numel
  bcast_S_S1024x512 : S_.BroadcastsInDim S1024x512 (![] : Fin 0 → Fin S1024x512.rank)

variable [Facts₀]

class Facts : Prop extends Facts₀ where

variable [Facts]
-- ==== Proof.Pieces.lean ====
/-
  What one run of the kernel body leaves behind, as values.

  The body keeps two [64, 128] running totals in scratch memory: one for the numerator and one for the denominator.  At
  the first of every four consecutive grid points it overwrites both with zeros; at every point it adds the point's tile
  sum to each; at the last of the four it also stores numerator / (denominator + 1) into the output block.  Read back
  from the stores the run found, each case leaves exactly these payload terms.
-/
import proofs.«143759_j69861938036870_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- The numerator total after a point: what it held, plus the sum over the tile's 128 columns of x·(ω·γ). -/
def numStep (acc : Vec F S64x128 .f32) (x0 : Vec F S64x128 .f32) (x1 : Vec F S128x128 .f32) (x2 : Vec F S128 .f32) :
    Vec F S64x128 .f32 := k0_pay1 acc (k0_pay7 x0 x1 x2)

/-- The denominator total after a point: what it held, plus the sum over the tile's 128 columns of ω·γ. -/
def denStep (acc : Vec F S64x128 .f32) (x0 : Vec F S64x128 .f32) (x1 : Vec F S128x128 .f32) (x2 : Vec F S128 .f32) :
    Vec F S64x128 .f32 := k0_pay2 (k0_pay6 x0 x1 x2) acc

/-- The output block stored at the last of four points: numerator total / (denominator total + 1). -/
def quotient (num den : Vec F S64x128 .f32) : Vec F S64x128 .f32 := k0_pay3 num den

/-! ## A middle point: both totals stepped once -/

theorem sout_B_0 (c : Dev nD) (i : grid0.Coords) (a3 : Memref sig .tc .vmem S64x128 .f32) (h3 : a3.IsWhole)
    (a4 : Memref sig .tc .vmem S128x128 .f32) (h4 : a4.IsWhole) (a5 : Memref sig .tc .vmem S128 .f32) (h5 : a5.IsWhole)
    (a6 : Memref sig .tc .vmem S64x128 .f32) (h6 : a6.IsWhole) (a7 : Memref sig .tc .vmem S64x128 .f32) (h7 : a7.IsWhole)
    (a8 : Memref sig .tc .vmem S64x128 .f32) (h8 : a8.IsWhole) (hc0 : ¬cond0_0 i) (hc1 : ¬cond0_1 i)
    (x0 : Vec F S64x128 .f32) (x1 : Vec F S128x128 .f32) (x2 : Vec F S128 .f32) (xs0 xs1 : Vec F S64x128 .f32) :
    sout0_B_0 c i a3 h3 a4 h4 a5 h5 a6 h6 a7 h7 a8 h8 hc0 hc1 x0 x1 x2 xs0 xs1 = numStep xs0 x0 x1 x2 := by
  unfold sout0_B_0
  rw [View.read_writes_eq_canon _ _ _ (scover0_B_0 c i a3 h3 a4 h4 a5 h5 a6 h6 a7 h7 a8 h8 hc0 hc1 x0 x1 x2 xs0 xs1)]
  unfold kernelRun0_B
  dsimp only
  sl_unfold_words
  rw [View.canon_unit_zero hz]
  simp only [View.readAt_eq_ld, h3.read_unread, h4.read_unread, h5.read_unread, h7.read_unread, h8.read_unread,
    View.ld_unit_zero (S := S64x128) hz, View.ld_unit_zero (S := S128x128) hz, View.ld_unit_zero (S := S128) hz1]
  rfl

theorem sout_B_1 (c : Dev nD) (i : grid0.Coords) (a3 : Memref sig .tc .vmem S64x128 .f32) (h3 : a3.IsWhole)
    (a4 : Memref sig .tc .vmem S128x128 .f32) (h4 : a4.IsWhole) (a5 : Memref sig .tc .vmem S128 .f32) (h5 : a5.IsWhole)
    (a6 : Memref sig .tc .vmem S64x128 .f32) (h6 : a6.IsWhole) (a7 : Memref sig .tc .vmem S64x128 .f32) (h7 : a7.IsWhole)
    (a8 : Memref sig .tc .vmem S64x128 .f32) (h8 : a8.IsWhole) (hc0 : ¬cond0_0 i) (hc1 : ¬cond0_1 i)
    (x0 : Vec F S64x128 .f32) (x1 : Vec F S128x128 .f32) (x2 : Vec F S128 .f32) (xs0 xs1 : Vec F S64x128 .f32) :
    sout0_B_1 c i a3 h3 a4 h4 a5 h5 a6 h6 a7 h7 a8 h8 hc0 hc1 x0 x1 x2 xs0 xs1 = denStep xs1 x0 x1 x2 := by
  unfold sout0_B_1
  rw [View.read_writes_eq_canon _ _ _ (scover0_B_1 c i a3 h3 a4 h4 a5 h5 a6 h6 a7 h7 a8 h8 hc0 hc1 x0 x1 x2 xs0 xs1)]
  unfold kernelRun0_B
  dsimp only
  sl_unfold_words
  rw [View.canon_unit_zero hz]
  simp only [View.readAt_eq_ld, h3.read_unread, h4.read_unread, h5.read_unread, h7.read_unread, h8.read_unread,
    View.ld_unit_zero (S := S64x128) hz, View.ld_unit_zero (S := S128x128) hz, View.ld_unit_zero (S := S128) hz1]
  rfl

/-! ## The last of four points: both totals stepped once, and their quotient stored -/

theorem sout_C_0 (c : Dev nD) (i : grid0.Coords) (a3 : Memref sig .tc .vmem S64x128 .f32) (h3 : a3.IsWhole)
    (a4 : Memref sig .tc .vmem S128x128 .f32) (h4 : a4.IsWhole) (a5 : Memref sig .tc .vmem S128 .f32) (h5 : a5.IsWhole)
    (a6 : Memref sig .tc .vmem S64x128 .f32) (h6 : a6.IsWhole) (a7 : Memref sig .tc .vmem S64x128 .f32) (h7 : a7.IsWhole)
    (a8 : Memref sig .tc .vmem S64x128 .f32) (h8 : a8.IsWhole) (hc0 : ¬cond0_0 i) (hc1 : cond0_1 i)
    (x0 : Vec F S64x128 .f32) (x1 : Vec F S128x128 .f32) (x2 : Vec F S128 .f32) (xs0 xs1 : Vec F S64x128 .f32) :
    sout0_C_0 c i a3 h3 a4 h4 a5 h5 a6 h6 a7 h7 a8 h8 hc0 hc1 x0 x1 x2 xs0 xs1 = numStep xs0 x0 x1 x2 := by
  unfold sout0_C_0
  rw [View.read_writes_eq_canon _ _ _ (scover0_C_0 c i a3 h3 a4 h4 a5 h5 a6 h6 a7 h7 a8 h8 hc0 hc1 x0 x1 x2 xs0 xs1)]
  unfold kernelRun0_C
  dsimp only
  sl_unfold_words
  rw [View.canon_unit_zero hz]
  simp only [View.readAt_eq_ld, h3.read_unread, h4.read_unread, h5.read_unread, h7.read_unread, h8.read_unread,
    View.ld_unit_zero (S := S64x128) hz, View.ld_unit_zero (S := S128x128) hz, View.ld_unit_zero (S := S128) hz1]
  rfl

theorem sout_C_1 (c : Dev nD) (i : grid0.Coords) (a3 : Memref sig .tc .vmem S64x128 .f32) (h3 : a3.IsWhole)
    (a4 : Memref sig .tc .vmem S128x128 .f32) (h4 : a4.IsWhole) (a5 : Memref sig .tc .vmem S128 .f32) (h5 : a5.IsWhole)
    (a6 : Memref sig .tc .vmem S64x128 .f32) (h6 : a6.IsWhole) (a7 : Memref sig .tc .vmem S64x128 .f32) (h7 : a7.IsWhole)
    (a8 : Memref sig .tc .vmem S64x128 .f32) (h8 : a8.IsWhole) (hc0 : ¬cond0_0 i) (hc1 : cond0_1 i)
    (x0 : Vec F S64x128 .f32) (x1 : Vec F S128x128 .f32) (x2 : Vec F S128 .f32) (xs0 xs1 : Vec F S64x128 .f32) :
    sout0_C_1 c i a3 h3 a4 h4 a5 h5 a6 h6 a7 h7 a8 h8 hc0 hc1 x0 x1 x2 xs0 xs1 = denStep xs1 x0 x1 x2 := by
  unfold sout0_C_1
  rw [View.read_writes_eq_canon _ _ _ (scover0_C_1 c i a3 h3 a4 h4 a5 h5 a6 h6 a7 h7 a8 h8 hc0 hc1 x0 x1 x2 xs0 xs1)]
  unfold kernelRun0_C
  dsimp only
  sl_unfold_words
  rw [View.canon_unit_zero hz]
  simp only [View.readAt_eq_ld, h3.read_unread, h4.read_unread, h5.read_unread, h7.read_unread, h8.read_unread,
    View.ld_unit_zero (S := S64x128) hz, View.ld_unit_zero (S := S128x128) hz, View.ld_unit_zero (S := S128) hz1]
  rfl

theorem out_C_3 (c : Dev nD) (i : grid0.Coords) (a3 : Memref sig .tc .vmem S64x128 .f32) (h3 : a3.IsWhole)
    (a4 : Memref sig .tc .vmem S128x128 .f32) (h4 : a4.IsWhole) (a5 : Memref sig .tc .vmem S128 .f32) (h5 : a5.IsWhole)
    (a6 : Memref sig .tc .vmem S64x128 .f32) (h6 : a6.IsWhole) (a7 : Memref sig .tc .vmem S64x128 .f32) (h7 : a7.IsWhole)
    (a8 : Memref sig .tc .vmem S64x128 .f32) (h8 : a8.IsWhole) (hc0 : ¬cond0_0 i) (hc1 : cond0_1 i)
    (x0 : Vec F S64x128 .f32) (x1 : Vec F S128x128 .f32) (x2 : Vec F S128 .f32) (xs0 xs1 : Vec F S64x128 .f32) :
    out0_C_3 c i a3 h3 a4 h4 a5 h5 a6 h6 a7 h7 a8 h8 hc0 hc1 x0 x1 x2 xs0 xs1 = quotient (numStep xs0 x0 x1 x2) (denStep xs1 x0 x1 x2) := by
  unfold out0_C_3
  rw [View.read_writes_eq_canon _ _ _ (cover0_C_3 c i a3 h3 a4 h4 a5 h5 a6 h6 a7 h7 a8 h8 hc0 hc1 x0 x1 x2 xs0 xs1)]
  unfold kernelRun0_C
  dsimp only
  sl_unfold_words
  rw [View.canon_unit_zero hz, View.readCov_unit_zero (S := S64x128) _ hz, View.readCov_unit_zero (S := S64x128) _ hz]
  simp only [View.readAt_eq_ld, h3.read_unread, h4.read_unread, h5.read_unread, h7.read_unread, h8.read_unread,
    View.ld_unit_zero (S := S64x128) hz, View.ld_unit_zero (S := S128x128) hz, View.ld_unit_zero (S := S128) hz1]
  rfl

/-! ## The first of four points: both totals zeroed, then stepped once -/

theorem sout_A_0 (c : Dev nD) (i : grid0.Coords) (a3 : Memref sig .tc .vmem S64x128 .f32) (h3 : a3.IsWhole)
    (a4 : Memref sig .tc .vmem S128x128 .f32) (h4 : a4.IsWhole) (a5 : Memref sig .tc .vmem S128 .f32) (h5 : a5.IsWhole)
    (a6 : Memref sig .tc .vmem S64x128 .f32) (h6 : a6.IsWhole) (a7 : Memref sig .tc .vmem S64x128 .f32) (h7 : a7.IsWhole)
    (a8 : Memref sig .tc .vmem S64x128 .f32) (h8 : a8.IsWhole) (hc0 : cond0_0 i) (hc1 : ¬cond0_1 i)
    (x0 : Vec F S64x128 .f32) (x1 : Vec F S128x128 .f32) (x2 : Vec F S128 .f32) :
    sout0_A_0 c i a3 h3 a4 h4 a5 h5 a6 h6 a7 h7 a8 h8 hc0 hc1 x0 x1 x2 = numStep k0_pay4 x0 x1 x2 := by
  unfold sout0_A_0
  rw [View.read_writes_eq_canon _ _ _ (scover0_A_0 c i a3 h3 a4 h4 a5 h5 a6 h6 a7 h7 a8 h8 hc0 hc1 x0 x1 x2)]
  unfold kernelRun0_A
  dsimp only
  sl_unfold_words
  rw [View.canon_cons_unit_zero (S := S64x128) hz, View.readCov_unit_zero (S := S64x128) _ hz]
  simp only [View.readAt_eq_ld, h3.read_unread, h4.read_unread, h5.read_unread, h7.read_unread, h8.read_unread,
    View.ld_unit_zero (S := S64x128) hz, View.ld_unit_zero (S := S128x128) hz, View.ld_unit_zero (S := S128) hz1]
  rfl

theorem sout_A_1 (c : Dev nD) (i : grid0.Coords) (a3 : Memref sig .tc .vmem S64x128 .f32) (h3 : a3.IsWhole)
    (a4 : Memref sig .tc .vmem S128x128 .f32) (h4 : a4.IsWhole) (a5 : Memref sig .tc .vmem S128 .f32) (h5 : a5.IsWhole)
    (a6 : Memref sig .tc .vmem S64x128 .f32) (h6 : a6.IsWhole) (a7 : Memref sig .tc .vmem S64x128 .f32) (h7 : a7.IsWhole)
    (a8 : Memref sig .tc .vmem S64x128 .f32) (h8 : a8.IsWhole) (hc0 : cond0_0 i) (hc1 : ¬cond0_1 i)
    (x0 : Vec F S64x128 .f32) (x1 : Vec F S128x128 .f32) (x2 : Vec F S128 .f32) :
    sout0_A_1 c i a3 h3 a4 h4 a5 h5 a6 h6 a7 h7 a8 h8 hc0 hc1 x0 x1 x2 = denStep k0_pay5 x0 x1 x2 := by
  unfold sout0_A_1
  rw [View.read_writes_eq_canon _ _ _ (scover0_A_1 c i a3 h3 a4 h4 a5 h5 a6 h6 a7 h7 a8 h8 hc0 hc1 x0 x1 x2)]
  unfold kernelRun0_A
  dsimp only
  sl_unfold_words
  rw [View.canon_cons_unit_zero (S := S64x128) hz, View.readCov_unit_zero (S := S64x128) _ hz]
  simp only [View.readAt_eq_ld, h3.read_unread, h4.read_unread, h5.read_unread, h7.read_unread, h8.read_unread,
    View.ld_unit_zero (S := S64x128) hz, View.ld_unit_zero (S := S128x128) hz, View.ld_unit_zero (S := S128) hz1]
  rfl

end Cert.KernelIdeal.Pieces

end
-- ==== Proof.Spec.lean ====
/-
  The function both programs compute, on the extended reals.

  For inputs X : [1024, 512], W : [512, 512], k : [512] the result at (b, o) is

      ( Σ_d X[b,d] · ω(W[d,o]) · γ(k[o], X[b,d]) )  /  ( Σ_d ω(W[d,o]) · γ(k[o], X[b,d]) + 1 ),     d = 0 … 511,

  where ω(w) = softplus(10·w) / 10 is a smooth non-negative weight (softplus in its overflow-safe form
  max(y, 0) + log(1 + e^{-|y|})) and γ(κ, x) = exp(clip(κ·x, -30, 30)) is a clipped exponential gate.  Both sums
  start from the zero word, as both programs' reductions do.

  The one law that joins the two programs is that a sum over 512 columns may be taken as four consecutive tiles of
  128 columns, accumulated one tile after the other from zero: only commutativity and associativity of addition, which
  the extended reals have, so no finiteness of the inputs is needed.  (The law is used where the kernel's running totals
  are read; this module only states the function.)
-/
import Idealize.ShloMosaic.PureOps.Ideal
import Idealize.ShloMosaic.Lib.ValueIdx

noncomputable section

namespace Cert.Spec

open Idealize.ShloMosaic Idealize.ShloMosaic.ValueIdx
open scoped BigOperators

/-- softplus(y) in the overflow-safe form max(y, 0) + log1p(exp(-|y - 0|)); the guard "y - 0 differs from itself"
    selects y + 0 where a float would be NaN, and never fires on the extended reals. -/
def softplus (y : EReal) : EReal :=
  Scalar.select
    (Ideal.cmp .une (y - Ideal.ofBits .f32 0x00000000#32) (y - Ideal.ofBits .f32 0x00000000#32))
    (y + Ideal.ofBits .f32 0x00000000#32)
    (max y (Ideal.ofBits .f32 0x00000000#32)
      + Ideal.log1p (Ideal.exp (-(max (y - Ideal.ofBits .f32 0x00000000#32) (-(y - Ideal.ofBits .f32 0x00000000#32))))))

/-- The smooth non-negative weight ω(w) = softplus(10·w) / 10. -/
def weight (w : EReal) : EReal :=
  Ideal.div (softplus (Ideal.ofBits .f32 0x41200000#32 * w)) (Ideal.ofBits .f32 0x41200000#32)

/-- The clipped exponential gate γ(κ, x) = exp(min(30, max(-30, κ·x))). -/
def gate (κ x : EReal) : EReal :=
  Ideal.exp (min (Ideal.ofBits .f32 0x41F00000#32) (max (Ideal.ofBits .f32 0xC1F00000#32) (κ * x)))

/-- One summand of the denominator: ω(w) · γ(κ, x). -/
def denTerm (x w κ : EReal) : EReal := weight w * gate κ x

/-- One summand of the numerator: x · (ω(w) · γ(κ, x)). -/
def numTerm (x w κ : EReal) : EReal := x * denTerm x w κ

/-- The result at row b and column o. -/
def resultAt (X : (⟨2, ![1024, 512]⟩ : Shape).Idx → EReal) (W : (⟨2, ![512, 512]⟩ : Shape).Idx → EReal)
    (K : (⟨1, ![512]⟩ : Shape).Idx → EReal) (b : Fin 1024) (o : Fin 512) : EReal :=
  Ideal.div
    (Ideal.ofBits .f32 0x00000000#32 + ∑ d : Fin 512, numTerm (X (ix2 b d)) (W (ix2 d o)) (K (ix1 o)))
    ((Ideal.ofBits .f32 0x00000000#32 + ∑ d : Fin 512, denTerm (X (ix2 b d)) (W (ix2 d o)) (K (ix1 o)))
      + Ideal.ofBits .f32 0x3F800000#32)

/-- The whole result array. -/
def result (X : (⟨2, ![1024, 512]⟩ : Shape).Idx → EReal) (W : (⟨2, ![512, 512]⟩ : Shape).Idx → EReal)
    (K : (⟨1, ![512]⟩ : Shape).Idx → EReal) : (⟨2, ![1024, 512]⟩ : Shape).Idx → EReal :=
  fun i => resultAt X W K (i 0) (i 1)

theorem result_ix2 (X : (⟨2, ![1024, 512]⟩ : Shape).Idx → EReal) (W : (⟨2, ![512, 512]⟩ : Shape).Idx → EReal)
    (K : (⟨1, ![512]⟩ : Shape).Idx → EReal) (b : Fin 1024) (o : Fin 512) :
    result X W K (ix2 b o) = resultAt X W K b o := rfl

end Cert.Spec

end
-- ==== Proof.LibOuter3.lean ====
/-
  Rank-3 "outer product" layouts read at an index.

  A kernel that forms an [a, b, c] tensor from a length-c vector, an [a, b] matrix and a [b, c] matrix does it by adding
  unit axes and broadcasting: the vector as [1, 1, c], the first matrix as [a, b, 1], the second as [1, b, c].  Each of
  these reads, at (r, k, l), one entry of its operand; and the sum of an [a, b, c] tensor along its middle axis reads, at
  (r, l), the sum over k of the entries (r, k, l).  All indices are written by coordinates.
-/
import Idealize.ShloMosaic.Lib.ValueIdx
import Idealize.ShloMosaic.Lib.Pipeline.Value
import Idealize.ShloMosaic.PureOps.Ideal.Laws

noncomputable section

namespace Outer3

open Idealize.ShloMosaic Idealize.ShloMosaic.ValueIdx
open scoped BigOperators

variable {α : Type}

/-- A length-c vector cast to [1, 1, c] reads, at (u, v, l), the vector at l. -/
theorem shapeCast_c_11c_apply {c : ℕ} (x : (⟨1, ![c]⟩ : Shape).Idx → α)
    (h : (⟨1, ![c]⟩ : Shape).ShapeCasts ⟨3, ![1, 1, c]⟩) (u v : Fin 1) (l : Fin c) :
    shapeCast ⟨3, ![1, 1, c]⟩ x h (ix3 u v l) = x (ix1 l) :=
  shapeCast_apply x h _ _ (by
    have hu : u.val = 0 := by omega
    have hv : v.val = 0 := by omega
    rw [Shape.rowMajor_val_three, Shape.rowMajor_val_one]
    show l.val = (u.val * 1 + v.val) * c + l.val
    rw [hu, hv]; simp)

/-- An [a, b] matrix cast to [a, b, 1] reads, at (r, k, u), the matrix at (r, k). -/
theorem shapeCast_ab_ab1_apply {a b : ℕ} (x : (⟨2, ![a, b]⟩ : Shape).Idx → α)
    (h : (⟨2, ![a, b]⟩ : Shape).ShapeCasts ⟨3, ![a, b, 1]⟩) (r : Fin a) (k : Fin b) (u : Fin 1) :
    shapeCast ⟨3, ![a, b, 1]⟩ x h (ix3 r k u) = x (ix2 r k) :=
  shapeCast_apply x h _ _ (by
    have hu : u.val = 0 := by omega
    rw [Shape.rowMajor_val_three, Shape.rowMajor_val_two]
    show r.val * b + k.val = (r.val * b + k.val) * 1 + u.val
    rw [hu, Nat.mul_one, Nat.add_zero])

/-- A [1, 1, c] array broadcast to [a, b, c] reads, at (r, k, l), its one fibre at l. -/
theorem broadcastTo_11c_abc_apply {a b c : ℕ} (v : (⟨3, ![1, 1, c]⟩ : Shape).Idx → α)
    (h : (⟨3, ![1, 1, c]⟩ : Shape).Broadcasts ⟨3, ![a, b, c]⟩) (r : Fin a) (k : Fin b) (l : Fin c) :
    broadcastTo ⟨3, ![a, b, c]⟩ v h (ix3 r k l) = v (ix3 (0 : Fin 1) (0 : Fin 1) l) := by
  refine broadcastTo_apply v h (ix3 r k l) (ix3 (0 : Fin 1) (0 : Fin 1) l) fun ax => ?_
  match ax with
  | ⟨0, _⟩ => rfl
  | ⟨1, _⟩ => rfl
  | ⟨2, _⟩ =>
    show l.val = if c = 1 then 0 else l.val
    split
    · have := l.isLt; omega
    · rfl

/-- An [a, b, 1] array broadcast to [a, b, c] reads, at (r, k, l), its entry (r, k). -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (k : Fin b) (l : Fin c) :
    broadcastTo ⟨3, ![a, b, c]⟩ v h (ix3 r k l) = v (ix3 r k (0 : Fin 1)) := by
  refine broadcastTo_apply v h (ix3 r k l) (ix3 r k (0 : Fin 1)) fun ax => ?_
  match ax with
  | ⟨0, _⟩ =>
    show r.val = if a = 1 then 0 else r.val
    split
    · have := r.isLt; omega
    · rfl
  | ⟨1, _⟩ =>
    show k.val = if b = 1 then 0 else k.val
    split
    · have := k.isLt; omega
    · rfl
  | ⟨2, _⟩ => rfl

/-- A [1, b, c] array broadcast to [a, b, c] reads, at (r, k, l), its entry (k, l). -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (k : Fin b) (l : Fin c) :
    broadcastTo ⟨3, ![a, b, c]⟩ v h (ix3 r k l) = v (ix3 (0 : Fin 1) k l) := by
  refine broadcastTo_apply v h (ix3 r k l) (ix3 (0 : Fin 1) k l) fun ax => ?_
  match ax with
  | ⟨0, _⟩ => rfl
  | ⟨1, _⟩ =>
    show k.val = if b = 1 then 0 else k.val
    split
    · have := k.isLt; omega
    · rfl
  | ⟨2, _⟩ =>
    show l.val = if c = 1 then 0 else l.val
    split
    · have := l.isLt; omega
    · rfl

/-- The sum of an [a, b, c] tensor of extended reals along its middle axis reads, at (r, l), the sum over k of the
    entries (r, k, l). -/
theorem multiReduction_add_mid_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.add.neutral φ hφ) (r : Fin a) (l : Fin c) :
    multiReduction .add [1] ⟨2, ![a, c]⟩ src acc h hφ hacc (ix2 r l) = ∑ k : Fin b, src (ix3 r k l) := by
  refine (Ideal.multiReduction_add_single src acc h hφ hacc (ix2 r l)).trans ?_
  refine Finset.sum_congr rfl fun k _ => congrArg src (funext fun ax => Fin.ext ?_)
  match ax with
  | ⟨0, _⟩ => rfl
  | ⟨1, _⟩ => rfl
  | ⟨2, _⟩ => rfl

end Outer3

end
-- ==== Proof.BodyAtIndex.lean ====
/-
  The body's arithmetic read at one entry, on the extended reals.

  With a tile x of X ([64, 128]), a tile w of W ([128, 128]) and a tile κ of k ([128]):  the [64, 128, 128] tensor the
  body forms holds ω(w[k,l])·γ(κ[l], x[r,k]) at (r, k, l), its product with x holds x[r,k] times that, and each running
  total gains at (r, l) the sum over the tile's 128 columns k.  The kernel spells the softplus guard with the ordered
  "not equal" and the negation as a subtraction from zero; on the extended reals these are the reference's spellings.
-/
import proofs.«143759_j69861938036870_1_alg».proof.Proof.Pieces
import proofs.«143759_j69861938036870_1_alg».proof.Proof.Spec
import proofs.«143759_j69861938036870_1_alg».proof.Proof.LibOuter3
import Idealize.ShloMosaic.PureOps.Ideal.Laws
import Idealize.ShloMosaic.Lib.ValueLayout

noncomputable section

namespace Cert.KernelIdeal.Body

open Cert.KernelIdeal Cert.KernelIdeal.Gen Cert.KernelIdeal.Pieces Idealize.ShloMosaic Idealize.ShloMosaic.ValueIdx
open scoped BigOperators

/-- Subtracting from the zero word is negation. -/
theorem zero_word_sub (a : EReal) : Ideal.ofBits .f32 0x00000000#32 - a = -a := by
  rw [Ideal.ofBits_zero_f32, zero_sub]

/-- The denominator's summand at (r, k, l): ω(w[k,l]) · γ(κ[l], x[r,k]). -/
theorem pay6_apply (x0 : Vec Ideal S64x128 .f32) (x1 : Vec Ideal S128x128 .f32) (x2 : Vec Ideal S128 .f32)
    (r : Fin 64) (k l : Fin 128) :
    k0_pay6 (F := Ideal) x0 x1 x2 (ix3 r k l) = Cert.Spec.denTerm (x0 (ix2 r k)) (x1 (ix2 k l)) (x2 (ix1 l)) := by
  unfold k0_pay6
  simp only [mulf, divf, exp, log1p, absf, subf, addf, maximumf, minimumf, select, cmpf, broadcast,
    Outer3.broadcastTo_1bc_abc_apply, Outer3.broadcastTo_ab1_abc_apply, Outer3.broadcastTo_11c_abc_apply,
    Outer3.shapeCast_c_11c_apply, Outer3.shapeCast_ab_ab1_apply, shapeCast_ab_1ab_apply,
    Ideal.subf_def, Ideal.ofBits_def, zero_word_sub]
  rfl

/-- The numerator's summand at (r, k, l): x[r,k] times the denominator's. -/
theorem pay7_apply (x0 : Vec Ideal S64x128 .f32) (x1 : Vec Ideal S128x128 .f32) (x2 : Vec Ideal S128 .f32)
    (r : Fin 64) (k l : Fin 128) :
    k0_pay7 (F := Ideal) x0 x1 x2 (ix3 r k l) = Cert.Spec.numTerm (x0 (ix2 r k)) (x1 (ix2 k l)) (x2 (ix1 l)) := by
  unfold k0_pay7
  simp only [mulf, Outer3.broadcastTo_ab1_abc_apply, Outer3.shapeCast_ab_ab1_apply, pay6_apply]
  rfl

/-- The numerator total after a point, at (r, l): what it held plus the tile's sum of numerator summands. -/
theorem numStep_apply (acc x0 : Vec Ideal S64x128 .f32) (x1 : Vec Ideal S128x128 .f32) (x2 : Vec Ideal S128 .f32)
    (r : Fin 64) (l : Fin 128) :
    numStep (F := Ideal) acc x0 x1 x2 (ix2 r l)
      = acc (ix2 r l) + ∑ k : Fin 128, Cert.Spec.numTerm (x0 (ix2 r k)) (x1 (ix2 k l)) (x2 (ix1 l)) := by
  unfold numStep k0_pay1
  rw [shapeCast_self]
  show acc (ix2 r l) + multiReduction .add [1] S64x128 (k0_pay7 (F := Ideal) x0 x1 x2) 0x00000000#32 _ _ _ (ix2 r l) = _
  refine congrArg (acc (ix2 r l) + ·) ?_
  refine (Outer3.multiReduction_add_mid_apply (k0_pay7 (F := Ideal) x0 x1 x2) _ _ _ _ r l).trans ?_
  exact Finset.sum_congr rfl fun k _ => pay7_apply x0 x1 x2 r k l

/-- The denominator total after a point, at (r, l): what it held plus the tile's sum of denominator summands. -/
theorem denStep_apply (acc x0 : Vec Ideal S64x128 .f32) (x1 : Vec Ideal S128x128 .f32) (x2 : Vec Ideal S128 .f32)
    (r : Fin 64) (l : Fin 128) :
    denStep (F := Ideal) acc x0 x1 x2 (ix2 r l)
      = acc (ix2 r l) + ∑ k : Fin 128, Cert.Spec.denTerm (x0 (ix2 r k)) (x1 (ix2 k l)) (x2 (ix1 l)) := by
  unfold denStep k0_pay2
  rw [shapeCast_self]
  show acc (ix2 r l) + multiReduction .add [1] S64x128 (k0_pay6 (F := Ideal) x0 x1 x2) 0x00000000#32 _ _ _ (ix2 r l) = _
  refine congrArg (acc (ix2 r l) + ·) ?_
  refine (Outer3.multiReduction_add_mid_apply (k0_pay6 (F := Ideal) x0 x1 x2) _ _ _ _ r l).trans ?_
  exact Finset.sum_congr rfl fun k _ => pay6_apply x0 x1 x2 r k l

/-- The stored quotient at an entry: numerator / (denominator + 1). -/
theorem quotient_apply (num den : Vec Ideal S64x128 .f32) (j : S64x128.Idx) :
    quotient (F := Ideal) num den j = Ideal.div (num j) (den j + Ideal.ofBits .f32 0x3F800000#32) := rfl

/-- The numerator total is reset to the zero word. -/
theorem pay4_apply (j : S64x128.Idx) : k0_pay4 (F := Ideal) j = Ideal.ofBits .f32 0x00000000#32 := by
  unfold k0_pay4
  rw [shapeCast_self]
  rfl

/-- The denominator total is reset to the zero word. -/
theorem pay5_apply (j : S64x128.Idx) : k0_pay5 (F := Ideal) j = Ideal.ofBits .f32 0x00000000#32 := by
  unfold k0_pay5
  rw [shapeCast_self]
  rfl

end Cert.KernelIdeal.Body

end
-- ==== Proof.LibRangeTiles.lean ====
/-
  Two small tools for sums taken tile by tile.

  A sum over T consecutive tiles of width B is the sum over the first T · B natural numbers; it uses only that addition is
  commutative and associative, so it holds in the extended reals.  And a rank-2 array of extended reals extended by zero to
  all pairs of natural numbers, so that row and column arithmetic can be done on plain naturals.
-/
import Idealize.ShloMosaic.Lib.ValueIdx
import Idealize.ShloMosaic.PureOps.Ideal

noncomputable section

namespace BlockSparse

open Idealize.ShloMosaic Idealize.ShloMosaic.ValueIdx
open scoped BigOperators

/-- A sum over `T` consecutive tiles of width `B` is the sum over the first `T · B` naturals. -/
theorem sum_range_tiles {M : Type*} [AddCommMonoid M] (f : ℕ → M) (B : ℕ) :
    ∀ T : ℕ, ∑ s ∈ Finset.range T, ∑ k ∈ Finset.range B, f (s * B + k) = ∑ n ∈ Finset.range (T * B), f n
  | 0 => by simp
  | T + 1 => by
    rw [Finset.sum_range_succ, sum_range_tiles f B T, Nat.succ_mul, Finset.sum_range_add]

/-- A rank-2 array read at a pair of naturals: the entry when both are in range, zero otherwise. -/
def at2 {A B : ℕ} (f : (⟨2, ![A, B]⟩ : Shape).Idx → EReal) (a b : ℕ) : EReal :=
  if h : a < A ∧ b < B then f (ix2 ⟨a, h.1⟩ ⟨b, h.2⟩) else 0

/-- In range it is the entry. -/
theorem at2_of_lt {A B : ℕ} (f : (⟨2, ![A, B]⟩ : Shape).Idx → EReal) {a b : ℕ} (ha : a < A) (hb : b < B) :
    at2 f a b = f (ix2 ⟨a, ha⟩ ⟨b, hb⟩) := dif_pos ⟨ha, hb⟩

end BlockSparse

end
-- ==== Proof.Totals.lean ====
/-
  The running totals, point by point, as sums over columns of the argument arrays.

  Grid point t works on rows 64·(t / 16) …, output columns 128·(t / 4 mod 4) …, and the 128 reduction columns
  128·(t mod 4) ….  Four consecutive points 4q, 4q+1, 4q+2, 4q+3 share their rows and output columns and walk through the
  four tiles of the reduction axis; the totals are zeroed at 4q and gain one tile's sum at each point, so after 4q+3 each
  holds the zero word plus the sum over all 512 reduction columns.
-/
import proofs.«143759_j69861938036870_1_alg».proof.Proof.Gen.KernelIdeal.Value
import proofs.«143759_j69861938036870_1_alg».proof.Proof.BodyAtIndex
import proofs.«143759_j69861938036870_1_alg».proof.Proof.LibRangeTiles

noncomputable section

namespace Cert.KernelIdeal.Totals

open Cert.KernelIdeal Cert.KernelIdeal.Gen Cert.KernelIdeal.Pieces Cert.KernelIdeal.Body
open Idealize.ShloMosaic Idealize.ShloMosaic.TcCoe Idealize.SL.Sem Idealize.ShloMosaic.ValueIdx
open BlockSparse (at2 at2_of_lt sum_range_tiles)
open scoped BigOperators

variable (m : (ℓ : Loc nD τ sig) → Buf (Elt Ideal) ℓ)

/-- The three argument arrays as the region finds them. -/
abbrev Xa (c : Dev nD) : (⟨2, ![1024, 512]⟩ : Shape).Idx → EReal := V m c main_arg0
abbrev Wa (c : Dev nD) : (⟨2, ![512, 512]⟩ : Shape).Idx → EReal := V m c main_arg1
abbrev Ka (c : Dev nD) : (⟨1, ![512]⟩ : Shape).Idx → EReal := V m c main_arg2

/-- A rank-1 array read at a natural number: the entry when in range, zero otherwise. -/
def at1 {A : ℕ} (f : (⟨1, ![A]⟩ : Shape).Idx → EReal) (a : ℕ) : EReal :=
  if h : a < A then f (ix1 ⟨a, h⟩) else 0

theorem at1_of_lt {A : ℕ} (f : (⟨1, ![A]⟩ : Shape).Idx → EReal) {a : ℕ} (ha : a < A) :
    at1 f a = f (ix1 ⟨a, ha⟩) := dif_pos ha

/-! ## Where each point's tiles sit in the arrays -/

/-- The block index of every window at every grid point, decided over the 256 points. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 1) = t.val / 4 % 4
    ∧ win0_3.index t (0 : Fin 2) = t.val / 16 ∧ win0_3.index t (1 : Fin 2) = t.val / 4 % 4 :=
  (by decide +kernel : ∀ t : Fin grid0.N, _)

/-- The X tile of point t at (r, k) is X at row 64·(t/16) + r, column 128·(t mod 4) + k. -/
theorem xTile_apply (c : Dev nD) (t : Fin cfg0.N) (r : Fin 64) (k : Fin 128) :
    (iblk m c 0 t : Vec Ideal S64x128 .f32) (ix2 r k)
      = at2 (Xa m c) (64 * (t.val / 16) + r.val) (128 * (t.val % 4) + k.val) := by
  obtain ⟨e0, e1, -⟩ := idx_facts t
  have ht : t.val < 256 := lt_of_lt_of_eq t.isLt (show cfg0.N = 256 from N_0)
  rw [at2_of_lt _ (by omega) (by omega)]
  show V m c main_arg0 (((cfg0.win 0).blk t).view.emb (ix2 r k)) = V m c main_arg0 _
  refine congrArg _ (funext fun a => Fin.ext ?_)
  match a with
  | ⟨0, _⟩ => show win0_0.index t (0 : Fin 2) * 64 + 1 * r.val = 64 * (t.val / 16) + r.val; rw [e0]; omega
  | ⟨1, _⟩ => show win0_0.index t (1 : Fin 2) * 128 + 1 * k.val = 128 * (t.val % 4) + k.val; rw [e1]; omega

/-- The W tile of point t at (k, l) is W at row 128·(t mod 4) + k, column 128·(t/4 mod 4) + l. -/
theorem wTile_apply (c : Dev nD) (t : Fin cfg0.N) (k l : Fin 128) :
    (iblk m c 1 t : Vec Ideal S128x128 .f32) (ix2 k l)
      = at2 (Wa m c) (128 * (t.val % 4) + k.val) (128 * (t.val / 4 % 4) + l.val) := by
  obtain ⟨-, -, e0, e1, -⟩ := idx_facts t
  rw [at2_of_lt _ (by omega) (by omega)]
  show V m c main_arg1 (((cfg0.win 1).blk t).view.emb (ix2 k l)) = V m c main_arg1 _
  refine congrArg _ (funext fun a => Fin.ext ?_)
  match a with
  | ⟨0, _⟩ => show win0_1.index t (0 : Fin 2) * 128 + 1 * k.val = 128 * (t.val % 4) + k.val; rw [e0]; omega
  | ⟨1, _⟩ => show win0_1.index t (1 : Fin 2) * 128 + 1 * l.val = 128 * (t.val / 4 % 4) + l.val; rw [e1]; omega

/-- The k tile of point t at l is k at 128·(t/4 mod 4) + l. -/
theorem kTile_apply (c : Dev nD) (t : Fin cfg0.N) (l : Fin 128) :
    (iblk m c 2 t : Vec Ideal S128 .f32) (ix1 l) = at1 (Ka m c) (128 * (t.val / 4 % 4) + l.val) := by
  obtain ⟨-, -, -, -, e0, -⟩ := idx_facts t
  rw [at1_of_lt _ (by omega)]
  show V m c main_arg2 (((cfg0.win 2).blk t).view.emb (ix1 l)) = V m c main_arg2 _
  refine congrArg _ (funext fun a => Fin.ext ?_)
  match a with
  | ⟨0, _⟩ => show win0_2.index t (0 : Fin 1) * 128 + 1 * l.val = 128 * (t.val / 4 % 4) + l.val; rw [e0]; omega

/-! ## What one point adds to each total -/

/-- Point n's addend to the numerator total at an entry of the block. -/
def numAdd (c : Dev nD) (n : ℕ) (i : S64x128.Idx) : EReal :=
  ∑ k : Fin 128, Cert.Spec.numTerm (at2 (Xa m c) (64 * (n / 16) + (i 0).val) (128 * (n % 4) + k.val))
    (at2 (Wa m c) (128 * (n % 4) + k.val) (128 * (n / 4 % 4) + (i 1).val)) (at1 (Ka m c) (128 * (n / 4 % 4) + (i 1).val))

/-- Point n's addend to the denominator total at an entry of the block. -/
def denAdd (c : Dev nD) (n : ℕ) (i : S64x128.Idx) : EReal :=
  ∑ k : Fin 128, Cert.Spec.denTerm (at2 (Xa m c) (64 * (n / 16) + (i 0).val) (128 * (n % 4) + k.val))
    (at2 (Wa m c) (128 * (n % 4) + k.val) (128 * (n / 4 % 4) + (i 1).val)) (at1 (Ka m c) (128 * (n / 4 % 4) + (i 1).val))

/-- Stepping the numerator total over point t's tiles adds point t's addend. -/
theorem numStep_tile (c : Dev nD) (t : Fin cfg0.N) (acc : Vec Ideal S64x128 .f32) (i : S64x128.Idx) :
    numStep (F := Ideal) acc (iblk m c 0 t) (iblk m c 1 t) (iblk m c 2 t) i = acc i + numAdd m c t.val i := by
  obtain ⟨r, l, rfl⟩ : ∃ (r : Fin 64) (l : Fin 128), i = ix2 r l := ⟨i 0, i 1, eq_ix2 i⟩
  refine (numStep_apply acc (iblk m c 0 t) (iblk m c 1 t) (iblk m c 2 t) r l).trans ?_
  refine congrArg (acc (ix2 r l) + ·) (Finset.sum_congr rfl fun k _ => ?_)
  rw [xTile_apply m c t r k, wTile_apply m c t k l, kTile_apply m c t l]

/-- Stepping the denominator total over point t's tiles adds point t's addend. -/
theorem denStep_tile (c : Dev nD) (t : Fin cfg0.N) (acc : Vec Ideal S64x128 .f32) (i : S64x128.Idx) :
    denStep (F := Ideal) acc (iblk m c 0 t) (iblk m c 1 t) (iblk m c 2 t) i = acc i + denAdd m c t.val i := by
  obtain ⟨r, l, rfl⟩ : ∃ (r : Fin 64) (l : Fin 128), i = ix2 r l := ⟨i 0, i 1, eq_ix2 i⟩
  refine (denStep_apply acc (iblk m c 0 t) (iblk m c 1 t) (iblk m c 2 t) r l).trans ?_
  refine congrArg (acc (ix2 r l) + ·) (Finset.sum_congr rfl fun k _ => ?_)
  rw [xTile_apply m c t r k, wTile_apply m c t k l, kTile_apply m c t l]

/-! ## The cases' pieces at a grid point -/

theorem sout_A_0_at (c : Dev nD) (t : Fin cfg0.N) (hc0 : cond0_0 (grid0.coords t)) (hc1 : ¬cond0_1 (grid0.coords t)) :
    sout0_A_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t)
      = numStep k0_pay4 (iblk m c 0 t) (iblk m c 1 t) (iblk m c 2 t) :=
  sout_A_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t)

theorem sout_A_1_at (c : Dev nD) (t : Fin cfg0.N) (hc0 : cond0_0 (grid0.coords t)) (hc1 : ¬cond0_1 (grid0.coords t)) :
    sout0_A_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t)
      = denStep k0_pay5 (iblk m c 0 t) (iblk m c 1 t) (iblk m c 2 t) :=
  sout_A_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t)

theorem sout_B_0_at (c : Dev nD) (t : Fin cfg0.N) (hc0 : ¬cond0_0 (grid0.coords t)) (hc1 : ¬cond0_1 (grid0.coords t))
    (xs0 xs1 : Vec Ideal S64x128 .f32) :
    sout0_B_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) xs0 xs1
      = numStep xs0 (iblk m c 0 t) (iblk m c 1 t) (iblk m c 2 t) :=
  sout_B_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) xs0 xs1

theorem sout_B_1_at (c : Dev nD) (t : Fin cfg0.N) (hc0 : ¬cond0_0 (grid0.coords t)) (hc1 : ¬cond0_1 (grid0.coords t))
    (xs0 xs1 : Vec Ideal S64x128 .f32) :
    sout0_B_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) xs0 xs1
      = denStep xs1 (iblk m c 0 t) (iblk m c 1 t) (iblk m c 2 t) :=
  sout_B_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) xs0 xs1

theorem sout_C_0_at (c : Dev nD) (t : Fin cfg0.N) (hc0 : ¬cond0_0 (grid0.coords t)) (hc1 : cond0_1 (grid0.coords t))
    (xs0 xs1 : Vec Ideal S64x128 .f32) :
    sout0_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) xs0 xs1
      = numStep xs0 (iblk m c 0 t) (iblk m c 1 t) (iblk m c 2 t) :=
  sout_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) xs0 xs1

theorem sout_C_1_at (c : Dev nD) (t : Fin cfg0.N) (hc0 : ¬cond0_0 (grid0.coords t)) (hc1 : cond0_1 (grid0.coords t))
    (xs0 xs1 : Vec Ideal S64x128 .f32) :
    sout0_C_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) xs0 xs1
      = denStep xs1 (iblk m c 0 t) (iblk m c 1 t) (iblk m c 2 t) :=
  sout_C_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) xs0 xs1

theorem out_C_3_at (c : Dev nD) (t : Fin cfg0.N) (hc0 : ¬cond0_0 (grid0.coords t)) (hc1 : cond0_1 (grid0.coords t))
    (xs0 xs1 : Vec Ideal S64x128 .f32) :
    out0_C_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) xs0 xs1
      = quotient (numStep xs0 (iblk m c 0 t) (iblk m c 1 t) (iblk m c 2 t))
          (denStep xs1 (iblk m c 0 t) (iblk m c 1 t) (iblk m c 2 t)) :=
  out_C_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (iblk m c 2 t) xs0 xs1

/-! ## The totals after each point -/

/-- At the first of four points the numerator total ends at the zero word plus the point's addend. -/
theorem scAt0_0_first (c : Dev nD) (n : ℕ) (hb : n < cfg0.N) (h0 : n % 4 = 0) (acc : Vec Ideal S64x128 .f32)
    (i : S64x128.Idx) :
    Value.scAt0_0 m c n hb acc i = Ideal.ofBits .f32 0x00000000#32 + numAdd m c n i := by
  have h1 : ¬n % 4 = 3 := by omega
  unfold Value.scAt0_0
  rw [dif_pos h0, dif_neg h1, sout_A_0_at m c ⟨n, hb⟩, numStep_tile m c ⟨n, hb⟩, pay4_apply]

/-- At every other point it gains the point's addend. -/
theorem scAt0_0_later (c : Dev nD) (n : ℕ) (hb : n < cfg0.N) (h0 : ¬n % 4 = 0) (acc : Vec Ideal S64x128 .f32)
    (i : S64x128.Idx) :
    Value.scAt0_0 m c n hb acc i = acc i + numAdd m c n i := by
  unfold Value.scAt0_0
  rw [dif_neg h0]
  by_cases h1 : n % 4 = 3
  · rw [dif_pos h1, sout_C_0_at m c ⟨n, hb⟩, numStep_tile m c ⟨n, hb⟩]
  · rw [dif_neg h1, sout_B_0_at m c ⟨n, hb⟩, numStep_tile m c ⟨n, hb⟩]

/-- The same two facts for the denominator total. -/
theorem scAt0_1_first (c : Dev nD) (n : ℕ) (hb : n < cfg0.N) (h0 : n % 4 = 0) (acc : Vec Ideal S64x128 .f32)
    (i : S64x128.Idx) :
    Value.scAt0_1 m c n hb acc i = Ideal.ofBits .f32 0x00000000#32 + denAdd m c n i := by
  have h1 : ¬n % 4 = 3 := by omega
  unfold Value.scAt0_1
  rw [dif_pos h0, dif_neg h1, sout_A_1_at m c ⟨n, hb⟩, denStep_tile m c ⟨n, hb⟩, pay5_apply]

theorem scAt0_1_later (c : Dev nD) (n : ℕ) (hb : n < cfg0.N) (h0 : ¬n % 4 = 0) (acc : Vec Ideal S64x128 .f32)
    (i : S64x128.Idx) :
    Value.scAt0_1 m c n hb acc i = acc i + denAdd m c n i := by
  unfold Value.scAt0_1
  rw [dif_neg h0]
  by_cases h1 : n % 4 = 3
  · rw [dif_pos h1, sout_C_1_at m c ⟨n, hb⟩, denStep_tile m c ⟨n, hb⟩]
  · rw [dif_neg h1, sout_B_1_at m c ⟨n, hb⟩, denStep_tile m c ⟨n, hb⟩]

/-- The numerator total after point t: the zero word plus the addends of the points since the last reset. -/
theorem num_total (c : Dev nD) (t : Fin cfg0.N) (i : S64x128.Idx) :
    (outsAt0 m c t.val t.isLt).2.1 i
      = Ideal.ofBits .f32 0x00000000#32 + ∑ s ∈ Finset.range (t.val % 4 + 1), numAdd m c (4 * (t.val / 4) + s) i := by
  rw [Value.soutsAt0_0_eq m c t]
  exact Pipeline.accAt_add_apply (β := EReal)
    (fun n h => Value.scAt0_0 m c n h (VS0_0.read (Elt Ideal) VS0_0.junk)) (Value.scAt0_0 m c)
    (fun _ => Ideal.ofBits .f32 0x00000000#32) (numAdd m c) (4 * (t.val / 4)) 3
    (fun h i => scAt0_0_first m c _ h (by omega) _ i)
    (fun n h acc i hlt hle => scAt0_0_later m c n h (by omega) acc i)
    (t.val % 4) (by omega) _ i

/-- The denominator total after point t, likewise. -/
theorem den_total (c : Dev nD) (t : Fin cfg0.N) (i : S64x128.Idx) :
    (outsAt0 m c t.val t.isLt).2.2 i
      = Ideal.ofBits .f32 0x00000000#32 + ∑ s ∈ Finset.range (t.val % 4 + 1), denAdd m c (4 * (t.val / 4) + s) i := by
  rw [Value.soutsAt0_1_eq m c t]
  exact Pipeline.accAt_add_apply (β := EReal)
    (fun n h => Value.scAt0_1 m c n h (VS0_1.read (Elt Ideal) VS0_1.junk)) (Value.scAt0_1 m c)
    (fun _ => Ideal.ofBits .f32 0x00000000#32) (denAdd m c) (4 * (t.val / 4)) 3
    (fun h i => scAt0_1_first m c _ h (by omega) _ i)
    (fun n h acc i hlt hle => scAt0_1_later m c n h (by omega) acc i)
    (t.val % 4) (by omega) _ i

/-! ## Four tiles make the whole reduction axis -/

/-- Column n's numerator summand for the block of rows 64·(q/4) … and output columns 128·(q mod 4) …, at (r, l). -/
def numCol (c : Dev nD) (q : ℕ) (r : Fin 64) (l : Fin 128) (n : ℕ) : EReal :=
  Cert.Spec.numTerm (at2 (Xa m c) (64 * (q / 4) + r.val) n) (at2 (Wa m c) n (128 * (q % 4) + l.val))
    (at1 (Ka m c) (128 * (q % 4) + l.val))

/-- Column n's denominator summand, likewise. -/
def denCol (c : Dev nD) (q : ℕ) (r : Fin 64) (l : Fin 128) (n : ℕ) : EReal :=
  Cert.Spec.denTerm (at2 (Xa m c) (64 * (q / 4) + r.val) n) (at2 (Wa m c) n (128 * (q % 4) + l.val))
    (at1 (Ka m c) (128 * (q % 4) + l.val))

/-- Point 4q + s adds the summands of the columns of tile s. -/
theorem numAdd_tile (c : Dev nD) (q s : ℕ) (hs : s < 4) (r : Fin 64) (l : Fin 128) :
    numAdd m c (4 * q + s) (ix2 r l) = ∑ k ∈ Finset.range 128, numCol m c q r l (s * 128 + k) := by
  have e1 : (4 * q + s) / 16 = q / 4 := by omega
  have e2 : (4 * q + s) % 4 = s := by omega
  have e3 : (4 * q + s) / 4 % 4 = q % 4 := by omega
  rw [← Fin.sum_univ_eq_sum_range]
  unfold numAdd numCol
  rw [e1, e2, e3, Nat.mul_comm s 128]

theorem denAdd_tile (c : Dev nD) (q s : ℕ) (hs : s < 4) (r : Fin 64) (l : Fin 128) :
    denAdd m c (4 * q + s) (ix2 r l) = ∑ k ∈ Finset.range 128, denCol m c q r l (s * 128 + k) := by
  have e1 : (4 * q + s) / 16 = q / 4 := by omega
  have e2 : (4 * q + s) % 4 = s := by omega
  have e3 : (4 * q + s) / 4 % 4 = q % 4 := by omega
  rw [← Fin.sum_univ_eq_sum_range]
  unfold denAdd denCol
  rw [e1, e2, e3, Nat.mul_comm s 128]

/-- So the four points 4q … 4q+3 together add the summands of all 512 columns. -/
theorem num_four (c : Dev nD) (q : ℕ) (r : Fin 64) (l : Fin 128) :
    ∑ s ∈ Finset.range 4, numAdd m c (4 * q + s) (ix2 r l) = ∑ d : Fin 512, numCol m c q r l d.val := by
  rw [Fin.sum_univ_eq_sum_range (numCol m c q r l) 512, show (512 : ℕ) = 4 * 128 from rfl,
    ← sum_range_tiles (numCol m c q r l) 128 4]
  exact Finset.sum_congr rfl fun s hs => numAdd_tile m c q s (Finset.mem_range.mp hs) r l

theorem den_four (c : Dev nD) (q : ℕ) (r : Fin 64) (l : Fin 128) :
    ∑ s ∈ Finset.range 4, denAdd m c (4 * q + s) (ix2 r l) = ∑ d : Fin 512, denCol m c q r l d.val := by
  rw [Fin.sum_univ_eq_sum_range (denCol m c q r l) 512, show (512 : ℕ) = 4 * 128 from rfl,
    ← sum_range_tiles (denCol m c q r l) 128 4]
  exact Finset.sum_congr rfl fun s hs => denAdd_tile m c q s (Finset.mem_range.mp hs) r l

end Cert.KernelIdeal.Totals

end
-- ==== Proof.Final.lean ====
/-
  The result array after the run.

  The output block of a group of four points is written back once, after the last of them, and holds at (r, l) the
  quotient of the two finished totals: by the tile law this is the specified function at row 64·(t/16) + r and column
  128·(t/4 mod 4) + l.  The 64 written blocks (16 row bands by 4 column bands) tile the whole [1024, 512] array.
-/
import proofs.«143759_j69861938036870_1_alg».proof.Proof.Totals

noncomputable section

namespace Cert.KernelIdeal.Final

open Cert.KernelIdeal Cert.KernelIdeal.Gen Cert.KernelIdeal.Pieces Cert.KernelIdeal.Body Cert.KernelIdeal.Totals
open Idealize.ShloMosaic Idealize.ShloMosaic.TcCoe Idealize.SL.Sem Idealize.ShloMosaic.ValueIdx
open Idealize.ShloMosaic.Pipeline (Dat)
open BlockSparse (at2 at2_of_lt)
open scoped BigOperators

variable (m : (ℓ : Loc nD τ sig) → Buf (Elt Ideal) ℓ) (ρ : Dev nD → PrngReg)

/-- The specified function of the argument arrays as the region finds them, as contents of the result array. -/
abbrev G (c : Dev nD) : Buf (Elt Ideal) ((c : Thread nD τ).loc main_v0) :=
  Cert.Spec.result (Xa m c) (Wa m c) (Ka m c)

/-- At the last of four points the stored block is the quotient of the two totals the point leaves. -/
theorem out_is_quotient (c : Dev nD) (t : Fin cfg0.N) (h0 : ¬t.val % 4 = 0) (h3 : t.val % 4 = 3) :
    (outsAt0 m c t.val t.isLt).1 = quotient (outsAt0 m c t.val t.isLt).2.1 (outsAt0 m c t.val t.isLt).2.2 := by
  rw [outsAt0_C m c t h0 h3]
  dsimp only
  rw [out_C_3_at m c t, sout_C_0_at m c t, sout_C_1_at m c t]

/-- A column's numerator summand, with the rows and output columns of point t's block, read off the arrays. -/
theorem numCol_eq (c : Dev nD) (t : ℕ) (ht : t < 256) (r : Fin 64) (l : Fin 128) (d : Fin 512) :
    numCol m c (t / 4) r l d.val
      = Cert.Spec.numTerm (Xa m c (ix2 (⟨64 * (t / 16) + r.val, by omega⟩ : Fin 1024) d))
          (Wa m c (ix2 d (⟨128 * (t / 4 % 4) + l.val, by omega⟩ : Fin 512)))
          (Ka m c (ix1 (⟨128 * (t / 4 % 4) + l.val, by omega⟩ : Fin 512))) := by
  unfold numCol
  have e : t / 4 / 4 = t / 16 := by omega
  rw [e, at2_of_lt _ (by omega) d.isLt, at2_of_lt _ d.isLt (by omega), at1_of_lt _ (by omega)]

theorem denCol_eq (c : Dev nD) (t : ℕ) (ht : t < 256) (r : Fin 64) (l : Fin 128) (d : Fin 512) :
    denCol m c (t / 4) r l d.val
      = Cert.Spec.denTerm (Xa m c (ix2 (⟨64 * (t / 16) + r.val, by omega⟩ : Fin 1024) d))
          (Wa m c (ix2 d (⟨128 * (t / 4 % 4) + l.val, by omega⟩ : Fin 512)))
          (Ka m c (ix1 (⟨128 * (t / 4 % 4) + l.val, by omega⟩ : Fin 512))) := by
  unfold denCol
  have e : t / 4 / 4 = t / 16 := by omega
  rw [e, at2_of_lt _ (by omega) d.isLt, at2_of_lt _ d.isLt (by omega), at1_of_lt _ (by omega)]

/-- What the write-back after the last of four points writes is that point's block of the specified function. -/
theorem flushed_eq (c : Dev nD) (t : Fin cfg0.N) (hf : (cfg0.win 3).flush t = true) :
    (dats m 0 c).flushed 3 t = ((cfg0.win 3).blk t).view.read (Elt Ideal) (G m c) := by
  have h3 : t.val % 4 = 3 := (flush0_3 t).mp hf
  have h0 : ¬t.val % 4 = 0 := by omega
  have ht : t.val < 256 := lt_of_lt_of_eq t.isLt (show cfg0.N = 256 from N_0)
  obtain ⟨-, -, -, -, -, e0, e1⟩ := idx_facts t
  rw [Value.flushed3 m c t, out_is_quotient m c t h0 h3]
  funext j
  obtain ⟨r, l, rfl⟩ : ∃ (r : Fin 64) (l : Fin 128), j = ix2 r l := ⟨j 0, j 1, eq_ix2 j⟩
  have hemb : ((cfg0.win 3).blk t).view.emb (ix2 r l)
      = ix2 (⟨64 * (t.val / 16) + r.val, by omega⟩ : Fin 1024) (⟨128 * (t.val / 4 % 4) + l.val, by omega⟩ : Fin 512) := by
    funext a; apply Fin.ext
    match a with
    | ⟨0, _⟩ => show win0_3.index t (0 : Fin 2) * 64 + 1 * r.val = 64 * (t.val / 16) + r.val; rw [e0]; omega
    | ⟨1, _⟩ => show win0_3.index t (1 : Fin 2) * 128 + 1 * l.val = 128 * (t.val / 4 % 4) + l.val; rw [e1]; omega
  show quotient (F := Ideal) (outsAt0 m c t.val t.isLt).2.1 (outsAt0 m c t.val t.isLt).2.2 (ix2 r l)
    = G m c (((cfg0.win 3).blk t).view.emb (ix2 r l))
  rw [hemb, quotient_apply, num_total m c t (ix2 r l), den_total m c t (ix2 r l), h3, show 3 + 1 = 4 from rfl,
    num_four m c (t.val / 4) r l, den_four m c (t.val / 4) r l]
  show _ = Cert.Spec.resultAt (Xa m c) (Wa m c) (Ka m c) _ _
  unfold Cert.Spec.resultAt
  rw [Finset.sum_congr rfl fun d _ => numCol_eq m c t.val ht r l d,
    Finset.sum_congr rfl fun d _ => denCol_eq m c t.val ht r l d]

/-- An index of the array is in point t's block iff each coordinate is in the block's range on its axis. -/
theorem mem_blk (t : Fin cfg0.N) (i : S1024x512.Idx) :
    i ∈ ((cfg0.win 3).blk t).view.set ↔ ∀ a : Fin 2, win0_3.index t a * S64x128.size a ≤ (i a).val
      ∧ (i a).val < win0_3.index t a * S64x128.size a + S64x128.size a := by
  show i ∈ ((View.whole main_v0).slice (win0_3.rect t)).set ↔ _
  rw [View.set_slice_whole, Rect.mem_set_unit]
  exact Iff.rfl

/-- Every index lies in the block written back after the last point of its group: row band i₀ / 64, column band i₁ / 128. -/
theorem cover (i : S1024x512.Idx) :
    ∃ t : Fin cfg0.N, (cfg0.win 3).flush t = true ∧ i ∈ ((cfg0.win 3).blk t).view.set := by
  have hi0 : (i 0).val < 1024 := (i 0).isLt
  have hi1 : (i 1).val < 512 := (i 1).isLt
  have hN : cfg0.N = 256 := N_0
  obtain ⟨t, hv⟩ : ∃ t : Fin cfg0.N, t.val = 16 * ((i 0).val / 64) + 4 * ((i 1).val / 128) + 3 :=
    ⟨⟨16 * ((i 0).val / 64) + 4 * ((i 1).val / 128) + 3, by rw [hN]; omega⟩, rfl⟩
  obtain ⟨-, -, -, -, -, e0, e1⟩ := idx_facts t
  refine ⟨t, (flush0_3 t).mpr (by omega), ?_⟩
  rw [mem_blk]
  intro a
  match a with
  | ⟨0, _⟩ =>
    show win0_3.index t (0 : Fin 2) * 64 ≤ (i 0).val ∧ (i 0).val < win0_3.index t (0 : Fin 2) * 64 + 64
    rw [e0]; omega
  | ⟨1, _⟩ =>
    show win0_3.index t (1 : Fin 2) * 128 ≤ (i 1).val ∧ (i 1).val < win0_3.index t (1 : Fin 2) * 128 + 128
    rw [e1]; omega

/-- So the result array ends holding the specified function of the argument arrays. -/
theorem final (c : Dev nD) : (dats m 0 c).arrAt 3 cfg0.N = G m c :=
  (dats m 0 c).arrAt_eq_of_cover 3 (G m c) (fun t hf => flushed_eq m c t hf) cover

/-- The run, read: the result array at the specified function of the launch contents, the arguments unchanged. -/
theorem run : θ_run defs (onTc (τ := τ) (main (F := Ideal))) ⟨m, fun _ => 0, ρ⟩ fun r => ∀ c : Dev nD,
      r.2.mem ((c : Thread nD τ).loc main_v0)
        = Cert.Spec.result (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Final

end
-- ==== Proof.RefIsSpec.lean ====
/-
  The reference computes the specified function.

  Read one operation at a time, the reference's result at (b, o) is the quotient of  0 + Σ_d X[b,d]·(ω(W[d,o])·γ(k[o], X[b,d]))
  by  (0 + Σ_d ω(W[d,o])·γ(k[o], X[b,d])) + 1:  every broadcast reads the entry its coordinates name, and on the extended
  reals the host's quotient, exponential, log1p, negation and absolute value are the textbook functions.
-/
import proofs.«143759_j69861938036870_1_alg».proof.Proof.Gen.ReferenceIdeal.Read
import proofs.«143759_j69861938036870_1_alg».proof.Proof.Spec

noncomputable section

namespace Cert.ReferenceIdeal.RefValue

open Cert.ReferenceIdeal Cert.ReferenceIdeal.Read Idealize.ShloMosaic Idealize.ShloMosaic.ValueIdx
open scoped BigOperators

/-- The reference's result array is the specified function of its three arguments. -/
theorem result_eq (X : (⟨S1024x512, .f32⟩ : BufTy).Contents (Elt Ideal)) (W : (⟨S512x512, .f32⟩ : BufTy).Contents (Elt Ideal))
    (K : (⟨S512, .f32⟩ : BufTy).Contents (Elt Ideal)) :
    val_main_v22 (F := Ideal) X W K = Cert.Spec.result X W K := by
  funext i
  obtain ⟨b, o, rfl⟩ : ∃ (b : Fin 1024) (o : Fin 512), i = ix2 b o := ⟨i 0, i 1, eq_ix2 i⟩
  have eX18 : ∀ k : Fin 512, idx_main_v15 (idx_main_v16 (idx_main_v18 (ix2 b o) k)) = ix2 b k := fun k =>
    funext fun a => Fin.ext (by match a with | ⟨0, _⟩ => rfl | ⟨1, _⟩ => rfl)
  have eX18' : ∀ k : Fin 512, idx_main_v6 (idx_main_v8 (idx_main_v18 (ix2 b o) k)) = ix2 b k := fun k =>
    funext fun a => Fin.ext (by match a with | ⟨0, _⟩ => rfl | ⟨1, _⟩ => rfl)
  have eW18 : ∀ k : Fin 512, idx_main_v11 (idx_main_v13 (idx_main_v18 (ix2 b o) k)) = ix2 k o := fun k =>
    funext fun a => Fin.ext (by match a with | ⟨0, _⟩ => rfl | ⟨1, _⟩ => rfl)
  have eK18 : ∀ k : Fin 512, idx_main_v5 (idx_main_v7 (idx_main_v18 (ix2 b o) k)) = ix1 o := fun k =>
    funext fun a => Fin.ext (by match a with | ⟨0, _⟩ => rfl)
  have eX19 : ∀ k : Fin 512, idx_main_v6 (idx_main_v8 (idx_main_v19 (ix2 b o) k)) = ix2 b k := fun k =>
    funext fun a => Fin.ext (by match a with | ⟨0, _⟩ => rfl | ⟨1, _⟩ => rfl)
  have eW19 : ∀ k : Fin 512, idx_main_v11 (idx_main_v13 (idx_main_v19 (ix2 b o) k)) = ix2 k o := fun k =>
    funext fun a => Fin.ext (by match a with | ⟨0, _⟩ => rfl | ⟨1, _⟩ => rfl)
  have eK19 : ∀ k : Fin 512, idx_main_v5 (idx_main_v7 (idx_main_v19 (ix2 b o) k)) = ix1 o := fun k =>
    funext fun a => Fin.ext (by match a with | ⟨0, _⟩ => rfl)
  rw [val_main_v22_apply, val_main_v18_apply, val_main_v21_apply, val_main_v19_apply]
  simp only [val_main_v17_apply, val_main_v16_apply, val_main_v15_apply, val_main_v14_apply, val_main_v13_apply,
    val_main_v12_apply, val_main_v11_apply, val_main_v10_apply, val_main_call1_v4_apply, val_main_call1_v3_apply,
    val_main_call1_v2_apply, val_main_call1_v1_apply, val_main_call1_v0_apply, val_main_cst_2_apply, val_main_cst_1_apply,
    val_main_v9_apply, val_main_v8_apply, val_main_v7_apply, val_main_v6_apply, val_main_v5_apply, val_main_v4_apply,
    val_main_v3_apply, val_main_cst_0_apply, val_main_v2_apply, val_main_call0_v11_apply, val_main_call0_v10_apply,
    val_main_call0_v9_apply, val_main_call0_v8_apply, val_main_call0_v7_apply, val_main_call0_v6_apply,
    val_main_call0_v5_apply, val_main_call0_v4_apply, val_main_call0_v3_apply, val_main_call0_v2_apply,
    val_main_call0_v1_apply, val_main_call0_v0_apply, val_main_call0_cst_apply, val_main_v1_apply, val_main_v0_apply,
    val_main_cst_apply, val_main_v20_apply, val_main_cst_5_apply, val_main_cst_4_apply, val_main_cst_3_apply,
    eX18, eX18', eW18, eK18, eX19, eW19, eK19]
  rfl

end Cert.ReferenceIdeal.RefValue

end
-- ==== Proof.lean ====
/-
  The kernel and its reference compute the same function on the extended reals.

  For X : [1024, 512], W : [512, 512], k : [512] both produce, at (b, o),

      ( Σ_d X[b,d] · ω(W[d,o]) · γ(k[o], X[b,d]) )  /  ( Σ_d ω(W[d,o]) · γ(k[o], X[b,d]) + 1 ),

  with ω(w) = softplus(10·w)/10 and γ(κ, x) = exp(clip(κ·x, -30, 30)).  The reference forms the whole
  [1024, 512, 512] tensor and sums it along its middle axis.  The kernel walks a 16 × 4 × 4 grid: for each block of
  64 rows and 128 output columns it accumulates the two sums over four tiles of 128 reduction columns in two scratch
  totals (zeroed at the first tile) and stores their quotient after the fourth.  The two agree because a sum over 512
  columns is the sum of its four consecutive tiles, added one after the other from zero — commutativity and
  associativity of addition only, so the inputs' finiteness is never used.  The idealization rewrote nothing.
-/
import proofs.«143759_j69861938036870_1_alg».proof.Defs
import proofs.«143759_j69861938036870_1_alg».proof.Proof.Gen.Kernel
import proofs.«143759_j69861938036870_1_alg».proof.Proof.Gen.Kernel.Skeleton
import proofs.«143759_j69861938036870_1_alg».proof.Proof.Gen.Kernel.Launch
import proofs.«143759_j69861938036870_1_alg».proof.Proof.Gen.Kernel.Points
import proofs.«143759_j69861938036870_1_alg».proof.Proof.Gen.Kernel.Frame
import proofs.«143759_j69861938036870_1_alg».proof.Proof.Gen.KernelIdeal
import proofs.«143759_j69861938036870_1_alg».proof.Proof.Gen.KernelIdeal.Skeleton
import proofs.«143759_j69861938036870_1_alg».proof.Proof.Gen.KernelIdeal.Launch
import proofs.«143759_j69861938036870_1_alg».proof.Proof.Gen.KernelIdeal.Points
import proofs.«143759_j69861938036870_1_alg».proof.Proof.Gen.KernelIdeal.Frame
import proofs.«143759_j69861938036870_1_alg».proof.Proof.Gen.ReferenceIdeal
import proofs.«143759_j69861938036870_1_alg».proof.Proof.Gen.KernelIdeal.Value
import proofs.«143759_j69861938036870_1_alg».proof.Proof.Gen.ReferenceIdeal.Run
import proofs.«143759_j69861938036870_1_alg».proof.Proof.Gen.ReferenceIdeal.Read
import proofs.«143759_j69861938036870_1_alg».proof.Proof.Gen.Pre_finite_inputs
import proofs.«143759_j69861938036870_1_alg».proof.Proof.Final
import proofs.«143759_j69861938036870_1_alg».proof.Proof.RefIsSpec
import Idealize.ShloMosaic.Adequacy
import Idealize.ShloMosaic.Init

noncomputable section

namespace Cert.Proof

open Idealize.ShloMosaic Idealize.SL.Sem

/-- The word-level kernel terminates without fault and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on X, W and k, the kernel's result array and the reference's both end at the specified
    function of those arguments. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
